-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256x256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256x256 .f32) (main_arg8 : FVec F S256 .f32) (main_arg9 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_v33

def fn {F : FTy → Type} [FloatOps F] (main_arg0 : FVec F S10000x512 .f32) (main_arg1 : IVec S2x320000 32) (main_arg2 : FVec F S512x256 .f32) (main_arg3 : FVec F S256 .f32) (main_arg4 : FVec F S256x256 .f32) (main_arg5 : FVec F S256 .f32) (main_arg6 : FVec F S256x256 .f32) (main_arg7 : FVec F S256x256 .f32) (main_arg8 : FVec F S256 .f32) (main_arg9 : FVec F S256x256 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S1x256 : Shape := ⟨2, ![1, 256]⟩
abbrev S10000x256 : Shape := ⟨2, ![10000, 256]⟩
abbrev S2000x512 : Shape := ⟨2, ![2000, 512]⟩
abbrev S2000x256 : Shape := ⟨2, ![2000, 256]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩

abbrev nBuf : Space → Nat
  | .hbm => 64
  | .vmem => 24
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S1x256, .f32⟩
  | .hbm, ⟨15, _⟩ => ⟨S10000x256, .f32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x256, .f32⟩
  | .hbm, ⟨25, _⟩ => ⟨S_, .f32⟩
  | .hbm, ⟨26, _⟩ => ⟨S10000x256, .f32⟩
  | .hbm, ⟨27, _⟩ => ⟨S320000x1, .i32⟩
  | .hbm, ⟨28, _⟩ => ⟨S10000x256, .f32⟩
  | .hbm, ⟨29, _⟩ => ⟨S_, .f32⟩
  | .hbm, ⟨30, _⟩ => ⟨S320000, .f32⟩
  | .hbm, ⟨31, _⟩ => ⟨S_, .f32⟩
  | .hbm, ⟨32, _⟩ => ⟨S10000, .f32⟩
  | .hbm, ⟨33, _⟩ => ⟨S320000x1, .i32⟩
  | .hbm, ⟨34, _⟩ => ⟨S10000, .f32⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S10000x1, .f32⟩
  | .hbm, ⟨39, _⟩ => ⟨S10000x256, .f32⟩
  | .hbm, ⟨40, _⟩ => ⟨S10000x256, .f32⟩
  | .hbm, ⟨41, _⟩ => ⟨S1x256, .f32⟩
  | .hbm, ⟨42, _⟩ => ⟨S10000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S_, .f32⟩
  | .hbm, ⟨53, _⟩ => ⟨S10000x256, .f32⟩
  | .hbm, ⟨54, _⟩ => ⟨S320000x1, .i32⟩
  | .hbm, ⟨55, _⟩ => ⟨S10000x256, .f32⟩
  | .hbm, ⟨56, _⟩ => ⟨S_, .f32⟩
  | .hbm, ⟨57, _⟩ => ⟨S10000, .f32⟩
  | .hbm, ⟨58, _⟩ => ⟨S10000, .f32⟩
  | .hbm, ⟨59, _⟩ => ⟨S10000x1, .f32⟩
  | .hbm, ⟨60, _⟩ => ⟨S10000x256, .f32⟩
  | .hbm, ⟨61, _⟩ => ⟨S10000x256, .f32⟩
  | .hbm, ⟨62, _⟩ => ⟨S1x256, .f32⟩
  | .hbm, ⟨63, _⟩ => ⟨S10000x256, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .f32⟩
  | .local _ .vmem, ⟨11, _⟩ => ⟨S1x256, .f32⟩
  | .local _ .vmem, ⟨12, _⟩ => ⟨S256x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x256, .f32⟩
  | .local _ .vmem, ⟨20, _⟩ => ⟨S1x256, .f32⟩
  | .local _ .vmem, ⟨21, _⟩ => ⟨S256x256, .f32⟩
  | .local _ .vmem, ⟨22, _⟩ => ⟨S2000x256, .f32⟩
  | .local _ .vmem, ⟨23, _⟩ => ⟨S2000x256, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  dot_S2000x512_S512x256_S2000x256_1_0_0_1_n_n_wf : DotDims.WF S2000x512 S512x256 S2000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S10000x256.size a
  hwx0_3 : ∀ i : grid0.Coords, EltTy.bits .f32 = 32 ∨ (Rect.block (s := S10000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S10000x256.size a
  hwx1_0 : ∀ i : grid1.Coords, EltTy.bits .f32 = 32 ∨ (Rect.block (s := S10000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S10000x256.size a
  hwx1_1 : ∀ i : grid1.Coords, EltTy.bits .f32 = 32 ∨ (Rect.block (s := S10000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S10000x256.size a
  hwx1_5 : ∀ i : grid1.Coords, EltTy.bits .f32 = 32 ∨ (Rect.block (s := S10000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S10000x256.size a
  hwx2_1 : ∀ i : grid2.Coords, EltTy.bits .f32 = 32 ∨ (Rect.block (s := S10000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S10000x256.size a
  hwx2_5 : ∀ i : grid2.Coords, EltTy.bits .f32 = 32 ∨ (Rect.block (s := S10000x256) S2000x256.size (cc2_transform_5 i) (hinb2_5 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x256 : Shape := ⟨2, ![512, 256]⟩
abbrev S256 : Shape := ⟨1, ![256]⟩
abbrev S256x256 : Shape := ⟨2, ![256, 256]⟩
abbrev S1x320000 : Shape := ⟨2, ![1, 320000]⟩
abbrev S320000 : Shape := ⟨1, ![320000]⟩
abbrev S10000x256 : Shape := ⟨2, ![10000, 256]⟩
abbrev S1x256 : Shape := ⟨2, ![1, 256]⟩
abbrev S_ : Shape := ⟨0, ![]⟩
abbrev S320000x1 : Shape := ⟨2, ![320000, 1]⟩
abbrev S320000x256 : Shape := ⟨2, ![320000, 256]⟩
abbrev S10000 : Shape := ⟨1, ![10000]⟩
abbrev S10000x1 : Shape := ⟨2, ![10000, 1]⟩

abbrev nBuf : Space → Nat
  | .hbm => 85
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S_, .i32⟩
  | .hbm, ⟨19, _⟩ => ⟨S320000, .i32⟩
  | .hbm, ⟨20, _⟩ => ⟨S320000, .i1⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S320000, .i32⟩
  | .hbm, ⟨25, _⟩ => ⟨S320000x1, .i32⟩
  | .hbm, ⟨26, _⟩ => ⟨S320000x256, .f32⟩
  | .hbm, ⟨27, _⟩ => ⟨S_, .f32⟩
  | .hbm, ⟨28, _⟩ => ⟨S10000x256, .f32⟩
  | .hbm, ⟨29, _⟩ => ⟨S320000x1, .i32⟩
  | .hbm, ⟨30, _⟩ => ⟨S10000x256, .f32⟩
  | .hbm, ⟨31, _⟩ => ⟨S_, .f32⟩
  | .hbm, ⟨32, _⟩ => ⟨S320000, .f32⟩
  | .hbm, ⟨33, _⟩ => ⟨S_, .f32⟩
  | .hbm, ⟨34, _⟩ => ⟨S10000, .f32⟩
  | .hbm, ⟨35, _⟩ => ⟨S320000x1, .i32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S10000x1, .f32⟩
  | .hbm, ⟨41, _⟩ => ⟨S10000x256, .f32⟩
  | .hbm, ⟨42, _⟩ => ⟨S10000x256, .f32⟩
  | .hbm, ⟨43, _⟩ => ⟨S10000x256, .f32⟩
  | .hbm, ⟨44, _⟩ => ⟨S1x256, .f32⟩
  | .hbm, ⟨45, _⟩ => ⟨S10000x256, .f32⟩
  | .hbm, ⟨46, _⟩ => ⟨S10000x256, .f32⟩
  | .hbm, ⟨47, _⟩ => ⟨S10000x256, .f32⟩
  | .hbm, ⟨48, _⟩ => ⟨S10000x256, .f32⟩
  | .hbm, ⟨49, _⟩ => ⟨S_, .f32⟩
  | .hbm, ⟨50, _⟩ => ⟨S10000x256, .f32⟩
  | .hbm, ⟨51, _⟩ => ⟨S10000x256, .f32⟩
  | .hbm, ⟨52, _⟩ => ⟨S10000x256, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S_, .f32⟩
  | .hbm, ⟨63, _⟩ => ⟨S10000x256, .f32⟩
  | .hbm, ⟨64, _⟩ => ⟨S320000x1, .i32⟩
  | .hbm, ⟨65, _⟩ => ⟨S10000x256, .f32⟩
  | .hbm, ⟨66, _⟩ => ⟨S_, .f32⟩
  | .hbm, ⟨67, _⟩ => ⟨S320000, .f32⟩
  | .hbm, ⟨68, _⟩ => ⟨S_, .f32⟩
  | .hbm, ⟨69, _⟩ => ⟨S10000, .f32⟩
  | .hbm, ⟨70, _⟩ => ⟨S320000x1, .i32⟩
  | .hbm, ⟨71, _⟩ => ⟨S10000, .f32⟩
  | .hbm, ⟨72, _⟩ => ⟨S_, .f32⟩
  | .hbm, ⟨73, _⟩ => ⟨S10000, .f32⟩
  | .hbm, ⟨74, _⟩ => ⟨S10000, .f32⟩
  | .hbm, ⟨75, _⟩ => ⟨S10000x1, .f32⟩
  | .hbm, ⟨76, _⟩ => ⟨S10000x256, .f32⟩
  | .hbm, ⟨77, _⟩ => ⟨S10000x256, .f32⟩
  | .hbm, ⟨78, _⟩ => ⟨S10000x256, .f32⟩
  | .hbm, ⟨79, _⟩ => ⟨S1x256, .f32⟩
  | .hbm, ⟨80, _⟩ => ⟨S10000x256, .f32⟩
  | .hbm, ⟨81, _⟩ => ⟨S10000x256, .f32⟩
  | .hbm, ⟨82, _⟩ => ⟨S10000x256, .f32⟩
  | .hbm, ⟨83, _⟩ => ⟨S10000x256, .f32⟩
  | .hbm, ⟨84, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  dot_S10000x512_S512x256_S10000x256_1_0_0_1_n_n_wf : DotDims.WF S10000x512 S512x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  scatter_S10000_S320000x1_S320000_n_0_0_1_wf : ScatterDims.WF S10000 S320000x1 S320000 [] [0] [0] 1
  dot_S10000x256_S256x256_S10000x256_1_0_0_1_n_n_wf : DotDims.WF S10000x256 S256x256 S10000x256 [1] [0] [0] [1] [] []

variable [Facts₀]

def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.KRun.lean ====
/-
  The idealized kernel's run with its two result arrays named.

  The program is three pipelined regions among stretches of host operations. Its buffer contents at each segment
  boundary are a fold from the launch memory: a stretch of host operations applies its operations in order, a
  region leaves each of its arrays at what its write-backs fold to and every other buffer as it found it. Every
  weakly fair execution terminates in a state where each unscoped buffer holds the last boundary's contents; read
  at the two result buffers and at the ten arguments this is the statement below.
-/
import proofs.«148028_j32684701122703_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the first result array at the
    last boundary's contents of its buffer, the second likewise, and the argument arrays as launched. -/
theorem run_named : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Hand

end
-- ==== Proof.Spec.lean ====
/-
  The three dense stages as whole-array functions on the extended reals.

  `linG x w b` is the projection: entry (n, q) is  (Σ k, x(n,k) · w(k,q)) + b(0,q).
  `denseG a h wl wr b` is one layer before its residual: entry (n, q) is
  ((Σ k, a(n,k) · wl(k,q)) + b(0,q)) + Σ k, h(n,k) · wr(k,q),  where `a` is the neighbourhood mean and `h` the
  layer's input. The first layer takes the maximum with zero and adds `h`; the second adds `h` directly.
  The bias is a one-row table. Rows are the 10000 nodes, columns the 256 output features.
-/
import proofs.«148028_j32684701122703_1_alg».proof.KernelIdeal
import Idealize.ShloMosaic.Lib.ValueIdx
import Idealize.ShloMosaic.PureOps.Ideal

noncomputable section

open scoped BigOperators

namespace Cert.KernelIdeal.Hand

open Cert.KernelIdeal Idealize.ShloMosaic Idealize.ShloMosaic.ValueIdx

/-- The row coordinate of a matrix index, as a number below the row count. -/
def rowOf {n0 n1 : ℕ} (i : (⟨2, ![n0, n1]⟩ : Shape).Idx) : Fin n0 := ⟨(i 0).val, idx2_lt0 i⟩
/-- The column coordinate of a matrix index, as a number below the column count. -/
def colOf {n0 n1 : ℕ} (i : (⟨2, ![n0, n1]⟩ : Shape).Idx) : Fin n1 := ⟨(i 1).val, idx2_lt1 i⟩

theorem rowOf_val {n0 n1 : ℕ} (i : (⟨2, ![n0, n1]⟩ : Shape).Idx) : (rowOf i).val = (i 0).val := rfl
theorem colOf_val {n0 n1 : ℕ} (i : (⟨2, ![n0, n1]⟩ : Shape).Idx) : (colOf i).val = (i 1).val := rfl

/-- The projection `x · w + b`, entry by entry. -/
def linG (x : Vec Ideal S10000x512 .f32) (w : Vec Ideal S512x256 .f32) (b : Vec Ideal S1x256 .f32) :
    Vec Ideal S10000x256 .f32 :=
  fun i => (∑ k : Fin 512, x (ix2 (rowOf i) k) * w (ix2 k (colOf i))) + b (ix2 (0 : Fin 1) (colOf i))

/-- One layer before its residual: `a · wl + b + h · wr`, entry by entry. -/
def denseG (a h : Vec Ideal S10000x256 .f32) (wl wr : Vec Ideal S256x256 .f32) (b : Vec Ideal S1x256 .f32) :
    Vec Ideal S10000x256 .f32 :=
  fun i => ((∑ k : Fin 256, a (ix2 (rowOf i) k) * wl (ix2 k (colOf i))) + b (ix2 (0 : Fin 1) (colOf i)))
    + ∑ k : Fin 256, h (ix2 (rowOf i) k) * wr (ix2 k (colOf i))

/-- The first layer: the maximum of the dense part with zero, plus the input. -/
def layer1G (a h : Vec Ideal S10000x256 .f32) (wl wr : Vec Ideal S256x256 .f32) (b : Vec Ideal S1x256 .f32) :
    Vec Ideal S10000x256 .f32 :=
  fun i => max (denseG a h wl wr b i) (Ideal.ofBits .f32 0x00000000#32) + h i

/-- The second layer: the dense part plus the input. -/
def layer2G (a h : Vec Ideal S10000x256 .f32) (wl wr : Vec Ideal S256x256 .f32) (b : Vec Ideal S1x256 .f32) :
    Vec Ideal S10000x256 .f32 :=
  fun i => denseG a h wl wr b i + h i

end Cert.KernelIdeal.Hand

end
-- ==== Proof.HostDefs.lean ====
/-
  The host operations between the kernel regions, as functions of the buffers they read.

  An edge list is a [2, 320000] table of node numbers: row 0 the sources, row 1 the destinations. The neighbourhood
  mean of a [10000, 256] feature table gathers the source rows (a negative node number counted from the end), adds
  each gathered row into its destination row starting from zeros, and divides row n by the larger of 1 and the number
  of edges that end in n — that count being the same scatter-add of ones.
-/
import proofs.«148028_j32684701122703_1_alg».proof.Proof.Gen.KernelIdeal

noncomputable section

namespace Cert.KernelIdeal.Hand

open Cert.KernelIdeal Cert.KernelIdeal.Facts₀ Cert.KernelIdeal.Facts Idealize.ShloMosaic

variable {F : FTy → Type} [FloatOps F]

/-- Row 0 of the edge table: each edge's source node. -/
def srcK (e : (⟨S2x320000, .i32⟩ : BufTy).Contents (Elt F)) : (⟨S320000, .i32⟩ : BufTy).Contents (Elt F) :=
  shapeCast S320000 (extractStridedSlice S1x320000 ![0, 0] e slices_S2x320000_S1x320000_0_0) shapeCasts_S1x320000_S320000

/-- Row 1 of the edge table: each edge's destination node. -/
def dstK (e : (⟨S2x320000, .i32⟩ : BufTy).Contents (Elt F)) : (⟨S320000, .i32⟩ : BufTy).Contents (Elt F) :=
  shapeCast S320000 (extractStridedSlice S1x320000 ![1, 0] e slices_S2x320000_S1x320000_1_0) shapeCasts_S1x320000_S320000

/-- A bias vector as a one-row table. -/
def rowK (b : (⟨S256, .f32⟩ : BufTy).Contents (Elt F)) : (⟨S1x256, .f32⟩ : BufTy).Contents (Elt F) :=
  shapeCast S1x256 b shapeCasts_S256_S1x256

/-- The number of edges ending in each node: ones added into zeros at the destinations. -/
def degK (dst : (⟨S320000, .i32⟩ : BufTy).Contents (Elt F)) : (⟨S10000, .f32⟩ : BufTy).Contents (Elt F) :=
  Host.scatterAdd scatter_S10000_S320000x1_S320000_n_0_0_1
    (broadcastInDim S10000 ![] bcast_S_S10000 (constant S_ .f32 0x00000000#32))
    (broadcastInDim S320000x1 ![0] bcast_S320000_S320000x1_0 dst)
    (broadcastInDim S320000 ![] bcast_S_S320000 (constant S_ .f32 0x3F800000#32))

/-- The neighbourhood mean of `h` over the edges (`src`, `dst`), dividing by the larger of 1 and `deg`. -/
def meanOver (h : (⟨S10000x256, .f32⟩ : BufTy).Contents (Elt F)) (src dst : (⟨S320000, .i32⟩ : BufTy).Contents (Elt F))
    (deg : (⟨S10000, .f32⟩ : BufTy).Contents (Elt F)) : (⟨S10000x256, .f32⟩ : BufTy).Contents (Elt F) :=
  Host.divf
    (Host.scatterAdd scatter_S10000x256_S320000x1_S320000x256_1_0_0_1
      (broadcastInDim S10000x256 ![] bcast_S_S10000x256 (constant S_ .f32 0x00000000#32))
      (broadcastInDim S320000x1 ![0] bcast_S320000_S320000x1_0 dst)
      (Host.gather gather_S10000x256_S320000x1_S320000x256_1_0_n_n_0_1_1256 h
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 10000#32))) src))))
    (broadcastInDim S10000x256 ![0, 1] bcast_S10000x1_S10000x256_0_1
      (broadcastInDim S10000x1 ![0] bcast_S10000_S10000x1_0
        (maximumf deg (broadcastInDim S10000 ![] bcast_S_S10000 (constant S_ .f32 0x3F800000#32)))))

end Cert.KernelIdeal.Hand

end
-- ==== Proof.Host0.lean ====
/-
  The first stretch of host operations: the edge table's two rows as vectors, and the first bias as a row.
-/
import proofs.«148028_j32684701122703_1_alg».proof.Proof.Gen.KernelIdeal.Launch
import proofs.«148028_j32684701122703_1_alg».proof.Proof.HostDefs
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- A buffer no operation of a stretch writes holds after the stretch what it held before. -/
local macro "keep_by" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem host0_v1 (W : Valuation τ sig (Elt F)) :
    StableHlo.after hostOps0 W (Proc.devRef .tc main_v1) = srcK (W (Proc.devRef .tc main_arg1)) := by
  after_results_simp <;> rfl

theorem host0_v3 (W : Valuation τ sig (Elt F)) :
    StableHlo.after hostOps0 W (Proc.devRef .tc main_v3) = dstK (W (Proc.devRef .tc main_arg1)) := by
  after_results_simp <;> rfl

theorem host0_v4 (W : Valuation τ sig (Elt F)) :
    StableHlo.after hostOps0 W (Proc.devRef .tc main_v4) = rowK (W (Proc.devRef .tc main_arg3)) := by
  after_results_simp <;> rfl

theorem host0_keep_arg0 (W : Valuation τ sig (Elt F)) :
    StableHlo.after hostOps0 W (Proc.devRef .tc main_arg0) = W (Proc.devRef .tc main_arg0) := by keep_by hostOps0

theorem host0_keep_arg2 (W : Valuation τ sig (Elt F)) :
    StableHlo.after hostOps0 W (Proc.devRef .tc main_arg2) = W (Proc.devRef .tc main_arg2) := by keep_by hostOps0

theorem host0_keep_arg4 (W : Valuation τ sig (Elt F)) :
    StableHlo.after hostOps0 W (Proc.devRef .tc main_arg4) = W (Proc.devRef .tc main_arg4) := by keep_by hostOps0

theorem host0_keep_arg5 (W : Valuation τ sig (Elt F)) :
    StableHlo.after hostOps0 W (Proc.devRef .tc main_arg5) = W (Proc.devRef .tc main_arg5) := by keep_by hostOps0

theorem host0_keep_arg6 (W : Valuation τ sig (Elt F)) :
    StableHlo.after hostOps0 W (Proc.devRef .tc main_arg6) = W (Proc.devRef .tc main_arg6) := by keep_by hostOps0

theorem host0_keep_arg7 (W : Valuation τ sig (Elt F)) :
    StableHlo.after hostOps0 W (Proc.devRef .tc main_arg7) = W (Proc.devRef .tc main_arg7) := by keep_by hostOps0

theorem host0_keep_arg8 (W : Valuation τ sig (Elt F)) :
    StableHlo.after hostOps0 W (Proc.devRef .tc main_arg8) = W (Proc.devRef .tc main_arg8) := by keep_by hostOps0

theorem host0_keep_arg9 (W : Valuation τ sig (Elt F)) :
    StableHlo.after hostOps0 W (Proc.devRef .tc main_arg9) = W (Proc.devRef .tc main_arg9) := by keep_by hostOps0

end Cert.KernelIdeal.Hand

end
-- ==== Proof.Host1.lean ====
/-
  The second stretch of host operations: the first neighbourhood mean, the edge count per node, the second bias as a row.
-/
import proofs.«148028_j32684701122703_1_alg».proof.Proof.Gen.KernelIdeal.Launch
import proofs.«148028_j32684701122703_1_alg».proof.Proof.HostDefs
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- A buffer no operation of a stretch writes holds after the stretch what it held before. -/
local macro "keep_by" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

set_option maxHeartbeats 4000000 in
theorem host1_v24 (W : Valuation τ sig (Elt F)) :
    StableHlo.after hostOps1 W (Proc.devRef .tc main_v24)
      = meanOver (W (Proc.devRef .tc main_v5)) (W (Proc.devRef .tc main_v1)) (W (Proc.devRef .tc main_v3))
          (degK (W (Proc.devRef .tc main_v3))) := by
  after_results_simp <;> rfl

set_option maxHeartbeats 4000000 in
theorem host1_v19 (W : Valuation τ sig (Elt F)) :
    StableHlo.after hostOps1 W (Proc.devRef .tc main_v19) = degK (W (Proc.devRef .tc main_v3)) := by
  after_results_simp <;> rfl

set_option maxHeartbeats 4000000 in
theorem host1_v25 (W : Valuation τ sig (Elt F)) :
    StableHlo.after hostOps1 W (Proc.devRef .tc main_v25) = rowK (W (Proc.devRef .tc main_arg5)) := by
  after_results_simp <;> rfl

theorem host1_keep_v5 (W : Valuation τ sig (Elt F)) :
    StableHlo.after hostOps1 W (Proc.devRef .tc main_v5) = W (Proc.devRef .tc main_v5) := by keep_by hostOps1

theorem host1_keep_v1 (W : Valuation τ sig (Elt F)) :
    StableHlo.after hostOps1 W (Proc.devRef .tc main_v1) = W (Proc.devRef .tc main_v1) := by keep_by hostOps1

theorem host1_keep_v3 (W : Valuation τ sig (Elt F)) :
    StableHlo.after hostOps1 W (Proc.devRef .tc main_v3) = W (Proc.devRef .tc main_v3) := by keep_by hostOps1

theorem host1_keep_arg4 (W : Valuation τ sig (Elt F)) :
    StableHlo.after hostOps1 W (Proc.devRef .tc main_arg4) = W (Proc.devRef .tc main_arg4) := by keep_by hostOps1

theorem host1_keep_arg6 (W : Valuation τ sig (Elt F)) :
    StableHlo.after hostOps1 W (Proc.devRef .tc main_arg6) = W (Proc.devRef .tc main_arg6) := by keep_by hostOps1

theorem host1_keep_arg7 (W : Valuation τ sig (Elt F)) :
    StableHlo.after hostOps1 W (Proc.devRef .tc main_arg7) = W (Proc.devRef .tc main_arg7) := by keep_by hostOps1

theorem host1_keep_arg8 (W : Valuation τ sig (Elt F)) :
    StableHlo.after hostOps1 W (Proc.devRef .tc main_arg8) = W (Proc.devRef .tc main_arg8) := by keep_by hostOps1

theorem host1_keep_arg9 (W : Valuation τ sig (Elt F)) :
    StableHlo.after hostOps1 W (Proc.devRef .tc main_arg9) = W (Proc.devRef .tc main_arg9) := by keep_by hostOps1

end Cert.KernelIdeal.Hand

end
-- ==== Proof.Host2.lean ====
/-
  The third stretch of host operations: the second neighbourhood mean, dividing by the edge count found before, and the
  third bias as a row.
-/
import proofs.«148028_j32684701122703_1_alg».proof.Proof.Gen.KernelIdeal.Launch
import proofs.«148028_j32684701122703_1_alg».proof.Proof.HostDefs
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- A buffer no operation of a stretch writes holds after the stretch what it held before. -/
local macro "keep_by" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

set_option maxHeartbeats 4000000 in
theorem host2_v41 (W : Valuation τ sig (Elt F)) :
    StableHlo.after hostOps2 W (Proc.devRef .tc main_v41)
      = meanOver (W (Proc.devRef .tc main_v26)) (W (Proc.devRef .tc main_v1)) (W (Proc.devRef .tc main_v3))
          (W (Proc.devRef .tc main_v19)) := by
  after_results_simp <;> rfl

set_option maxHeartbeats 4000000 in
theorem host2_v42 (W : Valuation τ sig (Elt F)) :
    StableHlo.after hostOps2 W (Proc.devRef .tc main_v42) = rowK (W (Proc.devRef .tc main_arg8)) := by
  after_results_simp <;> rfl

theorem host2_keep_v26 (W : Valuation τ sig (Elt F)) :
    StableHlo.after hostOps2 W (Proc.devRef .tc main_v26) = W (Proc.devRef .tc main_v26) := by keep_by hostOps2

theorem host2_keep_arg7 (W : Valuation τ sig (Elt F)) :
    StableHlo.after hostOps2 W (Proc.devRef .tc main_arg7) = W (Proc.devRef .tc main_arg7) := by keep_by hostOps2

theorem host2_keep_arg9 (W : Valuation τ sig (Elt F)) :
    StableHlo.after hostOps2 W (Proc.devRef .tc main_arg9) = W (Proc.devRef .tc main_arg9) := by keep_by hostOps2

end Cert.KernelIdeal.Hand

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.Body.lean ====
/-
  The three kernel bodies as formulas, entry by entry, on the extended reals.

  Each body loads whole blocks, multiplies on the matrix unit into a zero accumulator and finishes with pointwise
  operations. Read at row `p` and column `q` of the output block:

  * the projection body gives  (Σ k, x(p,k) · w(k,q)) + b(0,q);
  * the dense layer body gives  ((Σ k, a(p,k) · wl(k,q)) + b(0,q)) + Σ k, h(p,k) · wr(k,q),
    then, in the first layer only, the maximum with zero, and last the residual  + h(p,q).

  A change of float format is the identity on the extended reals, a shape cast to the same shape is the identity,
  and a [1,256] row broadcast over 2000 rows reads the row at column `q`.
-/
import proofs.«148028_j32684701122703_1_alg».proof.Proof.Gen.KernelIdeal.Skeleton
import proofs.«148028_j32684701122703_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A [2000,512] block times a [512,256] matrix into the zero accumulator, at (p, q): the sum over the 512
    contraction coordinates. -/
theorem mm512 {φ₁ φ₂ : FTy} (l : FVec Ideal S2000x512 φ₁) (r : FVec Ideal S512x256 φ₂) (p : Fin 2000) (q : Fin 256) :
    matmul dot_S2000x512_S512x256_S2000x256_1_0_0_1_n_n none l r (constant (F := Ideal) S2000x256 .f32 0x00000000#32) (ix2 p q)
      = ∑ k : Fin 512, l (ix2 p k) * r (ix2 k q) :=
  Cert.LibPlainDot.matmul_zero_apply dot_S2000x512_S512x256_S2000x256_1_0_0_1_n_n rfl rfl
    (fun j c => by
      unfold DotDims.lhsIdx
      rw [dif_neg (show ¬(0 : Fin S2000x512.rank) ∈ dot_S2000x512_S512x256_S2000x256_1_0_0_1_n_n.lhsBatch by decide),
        dif_pos (show (0 : Fin S2000x512.rank) ∈ dot_S2000x512_S512x256_S2000x256_1_0_0_1_n_n.lhsNonContracting by decide)]
      rfl)
    (fun j c => by
      unfold DotDims.rhsIdx
      rw [dif_neg (show ¬(1 : Fin S512x256.rank) ∈ dot_S2000x512_S512x256_S2000x256_1_0_0_1_n_n.rhsBatch by decide),
        dif_pos (show (1 : Fin S512x256.rank) ∈ dot_S2000x512_S512x256_S2000x256_1_0_0_1_n_n.rhsNonContracting by decide)]
      rfl)
    rfl rfl none l r p q

/-- A [2000,256] block times a [256,256] matrix into the zero accumulator, at (p, q): the sum over the 256
    contraction coordinates. -/
theorem mm256 {φ₁ φ₂ : FTy} (l : FVec Ideal S2000x256 φ₁) (r : FVec Ideal S256x256 φ₂) (p : Fin 2000) (q : Fin 256) :
    matmul dot_S2000x256_S256x256_S2000x256_1_0_0_1_n_n none l r (constant (F := Ideal) S2000x256 .f32 0x00000000#32) (ix2 p q)
      = ∑ k : Fin 256, l (ix2 p k) * r (ix2 k q) :=
  Cert.LibPlainDot.matmul_zero_apply dot_S2000x256_S256x256_S2000x256_1_0_0_1_n_n rfl rfl
    (fun j c => by
      unfold DotDims.lhsIdx
      rw [dif_neg (show ¬(0 : Fin S2000x256.rank) ∈ dot_S2000x256_S256x256_S2000x256_1_0_0_1_n_n.lhsBatch by decide),
        dif_pos (show (0 : Fin S2000x256.rank) ∈ dot_S2000x256_S256x256_S2000x256_1_0_0_1_n_n.lhsNonContracting by decide)]
      rfl)
    (fun j c => by
      unfold DotDims.rhsIdx
      rw [dif_neg (show ¬(1 : Fin S256x256.rank) ∈ dot_S2000x256_S256x256_S2000x256_1_0_0_1_n_n.rhsBatch by decide),
        dif_pos (show (1 : Fin S256x256.rank) ∈ dot_S2000x256_S256x256_S2000x256_1_0_0_1_n_n.rhsNonContracting by decide)]
      rfl)
    rfl rfl none l r p q

/-- The projection body at (p, q). -/
theorem pay0_apply (x0 : Vec Ideal S2000x512 .f32) (x1 : Vec Ideal S512x256 .f32) (x2 : Vec Ideal S1x256 .f32)
    (p : Fin 2000) (q : Fin 256) :
    k0_pay1 (F := Ideal) x0 x1 x2 (ix2 p q)
      = (∑ k : Fin 512, x0 (ix2 p k) * x1 (ix2 k q)) + x2 (ix2 (0 : Fin 1) q) := by
  unfold k0_pay1
  rw [addf_apply, mm512, shapeCast_self, broadcastTo_1b_ab_apply]
  rfl

/-- The first dense layer's body at (p, q): two products, the bias row, the maximum with zero, the residual. -/
theorem pay1_apply (v0 v3 : Vec Ideal S2000x256 .f32) (v6 v8 : Vec Ideal S256x256 .f32) (v11 : Vec Ideal S1x256 .f32)
    (v19 : Vec Ideal S2000x256 .f32) (p : Fin 2000) (q : Fin 256) :
    k1_pay1 (F := Ideal) v0 v3 v6 v8 v11 v19 (ix2 p q)
      = max ((((∑ k : Fin 256, v0 (ix2 p k) * v6 (ix2 k q)) + v11 (ix2 (0 : Fin 1) q))
              + ∑ k : Fin 256, v3 (ix2 p k) * v8 (ix2 k q))) (Ideal.ofBits .f32 0x00000000#32) + v19 (ix2 p q) := by
  unfold k1_pay1
  simp only [shapeCast_self]
  rw [addf_apply, maximumf_apply, addf_apply, addf_apply, mm256, mm256, broadcastTo_1b_ab_apply, broadcast_apply]
  rfl

/-- The second dense layer's body at (p, q): the same without the maximum. -/
theorem pay2_apply (v0 v3 : Vec Ideal S2000x256 .f32) (v6 v8 : Vec Ideal S256x256 .f32) (v11 : Vec Ideal S1x256 .f32)
    (v17 : Vec Ideal S2000x256 .f32) (p : Fin 2000) (q : Fin 256) :
    k2_pay1 (F := Ideal) v0 v3 v6 v8 v11 v17 (ix2 p q)
      = (((∑ k : Fin 256, v0 (ix2 p k) * v6 (ix2 k q)) + v11 (ix2 (0 : Fin 1) q))
              + ∑ k : Fin 256, v3 (ix2 p k) * v8 (ix2 k q)) + v17 (ix2 p q) := by
  unfold k2_pay1
  simp only [shapeCast_self]
  rw [addf_apply, addf_apply, addf_apply, mm256, mm256, broadcastTo_1b_ab_apply]
  rfl

end Cert.KernelIdeal.Hand

end
-- ==== Proof.Region0.lean ====
/-
  Region 0: the projection over five row blocks of 2000 nodes.

  Grid point `t` reads rows 2000·t … 2000·t + 1999 of the feature array and the weight matrix and the bias row whole;
  it writes the same rows of the result. Entry (n, q) of the projection depends only on row n of the features, so
  block `t` of the written array is block `t` of the whole-array function `linG`, and the five blocks tile the 10000
  rows: the array ends holding `linG` of the arrays the region found.
-/
import proofs.«148028_j32684701122703_1_alg».proof.Proof.Gen.KernelIdeal.Frame
import proofs.«148028_j32684701122703_1_alg».proof.Proof.Body
import proofs.«148028_j32684701122703_1_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the five grid points: the feature window and the result window are at block (t, 0),
    the weight matrix and the bias row at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point `t` is rows 2000·t … of the feature array. -/
theorem blk0_0 (c : Dev nD) (t : Fin cfg0.N) (x : S2000x512.Idx) (k : S10000x512.Idx)
    (hk0 : (k 0).val = t.val * 2000 + (x 0).val) (hk1 : (k 1).val = (x 1).val) :
    (iblk0 V c 0 t : Vec Ideal S2000x512 .f32) x = (V c main_arg0 : Vec Ideal S10000x512 .f32) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weight matrix is read whole at every point. -/
theorem blk0_1 (c : Dev nD) (t : Fin cfg0.N) :
    (iblk0 V c 1 t : Vec Ideal S512x256 .f32) = (V c main_arg2 : Vec Ideal S512x256 .f32) := by
  obtain ⟨-, -, e0, e1, -⟩ := idx0 t
  funext x
  unfold iblk0
  rw [View.read_apply]
  show V c main_arg2 _ = V c main_arg2 x
  congr 1
  funext a
  apply Fin.ext
  match a with
  | ⟨0, _⟩ => show win0_1.index t 0 * 512 + 1 * (x 0).val = (x 0).val; rw [e0]; omega
  | ⟨1, _⟩ => show win0_1.index t 1 * 256 + 1 * (x 1).val = (x 1).val; rw [e1]; omega

/-- The bias row is read whole at every point. -/
theorem blk0_2 (c : Dev nD) (t : Fin cfg0.N) :
    (iblk0 V c 2 t : Vec Ideal S1x256 .f32) = (V c main_v4 : Vec Ideal S1x256 .f32) := by
  obtain ⟨-, -, -, -, e0, e1, -⟩ := idx0 t
  funext x
  unfold iblk0
  rw [View.read_apply]
  show V c main_v4 _ = V c main_v4 x
  congr 1
  funext a
  apply Fin.ext
  match a with
  | ⟨0, _⟩ => show win0_2.index t 0 * 1 + 1 * (x 0).val = (x 0).val; rw [e0]; omega
  | ⟨1, _⟩ => show win0_2.index t 1 * 256 + 1 * (x 1).val = (x 1).val; rw [e1]; omega

/-- One point of the projection: the body on a block that is rows 2000·t … of `X` and the whole of `W` and `B`, read at
    the in-block index `y`, is `linG` of the whole arrays at the array index `i` lying over `y`. -/
theorem point0 (x0 : Vec Ideal S2000x512 .f32) (x1 : Vec Ideal S512x256 .f32) (x2 : Vec Ideal S1x256 .f32)
    (X : Vec Ideal S10000x512 .f32) (W : Vec Ideal S512x256 .f32) (B : Vec Ideal S1x256 .f32)
    (tv : ℕ) (y : S2000x256.Idx) (i : S10000x256.Idx)
    (hi0 : (i 0).val = tv * 2000 + (y 0).val) (hi1 : (i 1).val = (y 1).val)
    (e0 : ∀ (x : S2000x512.Idx) (k : S10000x512.Idx), (k 0).val = tv * 2000 + (x 0).val → (k 1).val = (x 1).val → x0 x = X k)
    (e1 : x1 = W) (e2 : x2 = B) :
    k0_pay1 (F := Ideal) x0 x1 x2 y = linG X W B i := by
  subst e1 e2
  obtain ⟨p, q, rfl⟩ : ∃ (p : Fin 2000) (q : Fin 256), y = ix2 p q := ⟨y 0, y 1, eq_ix2 y⟩
  have hc : colOf i = q := Fin.ext hi1
  rw [pay0_apply]
  unfold linG
  rw [hc]
  have s0 : ∀ k : Fin 512, x0 (ix2 p k) = X (ix2 (rowOf i) k) := fun k => e0 (ix2 p k) (ix2 (rowOf i) k) hi0 rfl
  simp only [s0]

/-- What point `t` writes back is block `t` of `linG` of the arrays the region found. -/
theorem flushed0_eq (c : Dev nD) (t : Fin cfg0.N) :
    (dat0 V c).flushed 3 t = ((cfg0.win 3).blk t).view.read (Elt Ideal)
      (linG (V c main_arg0) (V c main_arg2) (V c main_v4)) := by
  show (cfg0.win 3).cut (grid0.coords t) ((dat0 V c).after 3 t) = _
  rw [after0_3]
  unfold out0_3
  rw [View.canon_unit_zero hz0]
  simp only [View.ld_unit_zero (S := S2000x512) hz0, View.ld_unit_zero (S := S512x256) hz0, View.ld_unit_zero (S := S1x256) hz0]
  obtain ⟨-, -, -, -, -, -, e0, e1⟩ := idx0 t
  funext j
  show k0_pay1 (F := Ideal) (iblk0 V c 0 t) (iblk0 V c 1 t) (iblk0 V c 2 t) j
    = linG (V c main_arg0) (V c main_arg2) (V c main_v4) (((cfg0.win 3).blk t).view.emb j)
  exact point0 (iblk0 V c 0 t) (iblk0 V c 1 t) (iblk0 V c 2 t)
    (V c main_arg0) (V c main_arg2) (V c main_v4) t.val j (((cfg0.win 3).blk t).view.emb j)
    (by show win0_3.index t 0 * 2000 + 1 * (j 0).val = t.val * 2000 + (j 0).val; rw [e0]; omega)
    (by show win0_3.index t 1 * 256 + 1 * (j 1).val = (j 1).val; rw [e1]; omega)
    (fun x k h0 h1 => blk0_0 V c t x k h0 h1) (blk0_1 V c t) (blk0_2 V c t)

/-- An index of the result array lies in point `t`'s block iff each coordinate is in the block's range. -/
theorem mem_blk0 (t : Fin cfg0.N) (i : S10000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v5).slice (win0_3.rect t)).set ↔ _
  rw [View.set_slice_whole, Rect.mem_set_unit]
  exact Iff.rfl

/-- The result array after the region: `linG` of the arrays the region found (the five row blocks tile it). -/
theorem final0 (c : Dev nD) :
    (dat0 V c).arrAt 3 cfg0.N = linG (V c main_arg0) (V c main_arg2) (V c main_v4) :=
  (dat0 V c).arrAt_eq_of_cover 3 _ (fun t _ => flushed0_eq V c t) fun i => by
    have hN : cfg0.N = 5 := N_0
    have h0 : (i 0 : Nat) < 10000 := (i 0).isLt
    have h1 : (i 1 : Nat) < 256 := (i 1).isLt
    have ht : (i 0 : Nat) / 2000 < cfg0.N := by rw [hN]; omega
    obtain ⟨-, -, -, -, -, -, e0, e1⟩ := idx0 ⟨(i 0 : Nat) / 2000, ht⟩
    refine ⟨⟨(i 0 : Nat) / 2000, ht⟩, flush0_3 _, ?_⟩
    rw [mem_blk0]
    intro a
    match a with
    | ⟨0, _⟩ =>
      show win0_3.index ⟨(i 0 : Nat) / 2000, ht⟩ 0 * 2000 ≤ (i 0 : Nat) ∧ (i 0 : Nat) < win0_3.index ⟨(i 0 : Nat) / 2000, ht⟩ 0 * 2000 + 2000
      rw [e0]
      show (i 0 : Nat) / 2000 * 2000 ≤ (i 0 : Nat) ∧ (i 0 : Nat) < (i 0 : Nat) / 2000 * 2000 + 2000
      omega
    | ⟨1, _⟩ =>
      show win0_3.index ⟨(i 0 : Nat) / 2000, ht⟩ 1 * 256 ≤ (i 1 : Nat) ∧ (i 1 : Nat) < win0_3.index ⟨(i 0 : Nat) / 2000, ht⟩ 1 * 256 + 256
      rw [e1]
      omega

end Cert.KernelIdeal.Hand

end
-- ==== Proof.Region1.lean ====
/-
  Region 1: the first dense layer over five row blocks of 2000 nodes.

  Grid point `t` reads rows 2000·t … 2000·t + 1999 of the mean array and of the layer's input, and the two weight
  matrices and the bias row whole; it writes the same rows of the result. Since entry (n, q) of the layer depends
  only on row n of the two row-blocked operands, block `t` of the written array is block `t` of the whole-array
  function `layer1G`, and the five blocks tile the 10000 rows, so the array ends holding `layer1G` of the arrays
  the region found.
-/
import proofs.«148028_j32684701122703_1_alg».proof.Proof.Gen.KernelIdeal.Frame
import proofs.«148028_j32684701122703_1_alg».proof.Proof.Body
import proofs.«148028_j32684701122703_1_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the five grid points: the row-blocked windows are at block (t, 0), the whole ones
    at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean window's block at point `t` is rows 2000·t … of the mean array. -/
theorem blk1_0 (c : Dev nD) (t : Fin cfg1.N) (x : S2000x256.Idx) (k : S10000x256.Idx)
    (hk0 : (k 0).val = t.val * 2000 + (x 0).val) (hk1 : (k 1).val = (x 1).val) :
    (iblk1 V c 0 t : Vec Ideal S2000x256 .f32) x = (V c main_v24 : Vec Ideal S10000x256 .f32) k := by
  obtain ⟨e0, e1, -⟩ := idx1 t
  unfold iblk1
  rw [View.read_apply]
  show V c main_v24 _ = V c main_v24 _
  congr 1
  funext a
  apply Fin.ext
  match a with
  | ⟨0, _⟩ => show win1_0.index t 0 * 2000 + 1 * (x 0).val = (k 0).val; rw [e0, hk0]; omega
  | ⟨1, _⟩ => show win1_0.index t 1 * 256 + 1 * (x 1).val = (k 1).val; rw [e1, hk1]; omega

/-- The input window's block at point `t` is rows 2000·t … of the layer's input. -/
theorem blk1_1 (c : Dev nD) (t : Fin cfg1.N) (x : S2000x256.Idx) (k : S10000x256.Idx)
    (hk0 : (k 0).val = t.val * 2000 + (x 0).val) (hk1 : (k 1).val = (x 1).val) :
    (iblk1 V c 1 t : Vec Ideal S2000x256 .f32) x = (V c main_v5 : Vec Ideal S10000x256 .f32) k := by
  obtain ⟨-, -, e0, e1, -⟩ := idx1 t
  unfold iblk1
  rw [View.read_apply]
  show V c main_v5 _ = V c main_v5 _
  congr 1
  funext a
  apply Fin.ext
  match a with
  | ⟨0, _⟩ => show win1_1.index t 0 * 2000 + 1 * (x 0).val = (k 0).val; rw [e0, hk0]; omega
  | ⟨1, _⟩ => show win1_1.index t 1 * 256 + 1 * (x 1).val = (k 1).val; rw [e1, hk1]; omega

/-- The left weight matrix is read whole at every point. -/
theorem blk1_2 (c : Dev nD) (t : Fin cfg1.N) :
    (iblk1 V c 2 t : Vec Ideal S256x256 .f32) = (V c main_arg4 : Vec Ideal S256x256 .f32) := by
  obtain ⟨-, -, -, -, e0, e1, -⟩ := idx1 t
  funext x
  unfold iblk1
  rw [View.read_apply]
  show V c main_arg4 _ = V c main_arg4 x
  congr 1
  funext a
  apply Fin.ext
  match a with
  | ⟨0, _⟩ => show win1_2.index t 0 * 256 + 1 * (x 0).val = (x 0).val; rw [e0]; omega
  | ⟨1, _⟩ => show win1_2.index t 1 * 256 + 1 * (x 1).val = (x 1).val; rw [e1]; omega

/-- The bias row is read whole at every point. -/
theorem blk1_3 (c : Dev nD) (t : Fin cfg1.N) :
    (iblk1 V c 3 t : Vec Ideal S1x256 .f32) = (V c main_v25 : Vec Ideal S1x256 .f32) := by
  obtain ⟨-, -, -, -, -, -, e0, e1, -⟩ := idx1 t
  funext x
  unfold iblk1
  rw [View.read_apply]
  show V c main_v25 _ = V c main_v25 x
  congr 1
  funext a
  apply Fin.ext
  match a with
  | ⟨0, _⟩ => show win1_3.index t 0 * 1 + 1 * (x 0).val = (x 0).val; rw [e0]; omega
  | ⟨1, _⟩ => show win1_3.index t 1 * 256 + 1 * (x 1).val = (x 1).val; rw [e1]; omega

/-- The right weight matrix is read whole at every point. -/
theorem blk1_4 (c : Dev nD) (t : Fin cfg1.N) :
    (iblk1 V c 4 t : Vec Ideal S256x256 .f32) = (V c main_arg6 : Vec Ideal S256x256 .f32) := by
  obtain ⟨-, -, -, -, -, -, -, -, e0, e1, -⟩ := idx1 t
  funext x
  unfold iblk1
  rw [View.read_apply]
  show V c main_arg6 _ = V c main_arg6 x
  congr 1
  funext a
  apply Fin.ext
  match a with
  | ⟨0, _⟩ => show win1_4.index t 0 * 256 + 1 * (x 0).val = (x 0).val; rw [e0]; omega
  | ⟨1, _⟩ => show win1_4.index t 1 * 256 + 1 * (x 1).val = (x 1).val; rw [e1]; omega

/-- One point of the layer: the body on blocks that are rows 2000·t … of `A` and `H` and the whole of `WL`, `WR`, `B`,
    read at the in-block index `y`, is `layer1G` of the whole arrays at the array index `i` lying over `y`. -/
theorem point1 (x0 x1 : Vec Ideal S2000x256 .f32) (x2 x4 : Vec Ideal S256x256 .f32) (x3 : Vec Ideal S1x256 .f32)
    (A H : Vec Ideal S10000x256 .f32) (WL WR : Vec Ideal S256x256 .f32) (B : Vec Ideal S1x256 .f32)
    (tv : ℕ) (y : S2000x256.Idx) (i : S10000x256.Idx)
    (hi0 : (i 0).val = tv * 2000 + (y 0).val) (hi1 : (i 1).val = (y 1).val)
    (e0 : ∀ (x : S2000x256.Idx) (k : S10000x256.Idx), (k 0).val = tv * 2000 + (x 0).val → (k 1).val = (x 1).val → x0 x = A k)
    (e1 : ∀ (x : S2000x256.Idx) (k : S10000x256.Idx), (k 0).val = tv * 2000 + (x 0).val → (k 1).val = (x 1).val → x1 x = H k)
    (e2 : x2 = WL) (e4 : x4 = WR) (e3 : x3 = B) :
    k1_pay1 (F := Ideal) x0 x1 x2 x4 x3 x1 y = layer1G A H WL WR B i := by
  subst e2 e4 e3
  obtain ⟨p, q, rfl⟩ : ∃ (p : Fin 2000) (q : Fin 256), y = ix2 p q := ⟨y 0, y 1, eq_ix2 y⟩
  have hc : colOf i = q := Fin.ext hi1
  rw [pay1_apply]
  unfold layer1G denseG
  rw [hc, e1 (ix2 p q) i hi0 hi1]
  have s0 : ∀ k : Fin 256, x0 (ix2 p k) = A (ix2 (rowOf i) k) := fun k => e0 (ix2 p k) (ix2 (rowOf i) k) hi0 rfl
  have s1 : ∀ k : Fin 256, x1 (ix2 p k) = H (ix2 (rowOf i) k) := fun k => e1 (ix2 p k) (ix2 (rowOf i) k) hi0 rfl
  simp only [s0, s1]

/-- What point `t` writes back is block `t` of `layer1G` of the arrays the region found. -/
theorem flushed1_eq (c : Dev nD) (t : Fin cfg1.N) :
    (dat1 V c).flushed 5 t = ((cfg1.win 5).blk t).view.read (Elt Ideal)
      (layer1G (V c main_v24) (V c main_v5) (V c main_arg4) (V c main_arg6) (V c main_v25)) := by
  show (cfg1.win 5).cut (grid1.coords t) ((dat1 V c).after 5 t) = _
  rw [after1_5]
  unfold out1_5
  rw [View.canon_unit_zero hz1]
  simp only [View.ld_unit_zero (S := S2000x256) hz1, View.ld_unit_zero (S := S256x256) hz1, View.ld_unit_zero (S := S1x256) hz1]
  obtain ⟨-, -, -, -, -, -, -, -, -, -, e0, e1⟩ := idx1 t
  funext j
  show k1_pay1 (F := Ideal) (iblk1 V c 0 t) (iblk1 V c 1 t) (iblk1 V c 2 t) (iblk1 V c 4 t) (iblk1 V c 3 t) (iblk1 V c 1 t) j
    = layer1G (V c main_v24) (V c main_v5) (V c main_arg4) (V c main_arg6) (V c main_v25) (((cfg1.win 5).blk t).view.emb j)
  exact point1 (iblk1 V c 0 t) (iblk1 V c 1 t) (iblk1 V c 2 t) (iblk1 V c 4 t) (iblk1 V c 3 t)
    (V c main_v24) (V c main_v5) (V c main_arg4) (V c main_arg6) (V c main_v25) t.val j (((cfg1.win 5).blk t).view.emb j)
    (by show win1_5.index t 0 * 2000 + 1 * (j 0).val = t.val * 2000 + (j 0).val; rw [e0]; omega)
    (by show win1_5.index t 1 * 256 + 1 * (j 1).val = (j 1).val; rw [e1]; omega)
    (fun x k h0 h1 => blk1_0 V c t x k h0 h1) (fun x k h0 h1 => blk1_1 V c t x k h0 h1)
    (blk1_2 V c t) (blk1_4 V c t) (blk1_3 V c t)

/-- An index of the result array lies in point `t`'s block iff each coordinate is in the block's range. -/
theorem mem_blk1 (t : Fin cfg1.N) (i : S10000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v26).slice (win1_5.rect t)).set ↔ _
  rw [View.set_slice_whole, Rect.mem_set_unit]
  exact Iff.rfl

/-- The result array after the region: `layer1G` of the arrays the region found (the five row blocks tile it). -/
theorem final1 (c : Dev nD) :
    (dat1 V c).arrAt 5 cfg1.N = layer1G (V c main_v24) (V c main_v5) (V c main_arg4) (V c main_arg6) (V c main_v25) :=
  (dat1 V c).arrAt_eq_of_cover 5 _ (fun t _ => flushed1_eq V c t) fun i => by
    have hN : cfg1.N = 5 := N_1
    have h0 : (i 0 : Nat) < 10000 := (i 0).isLt
    have h1 : (i 1 : Nat) < 256 := (i 1).isLt
    have ht : (i 0 : Nat) / 2000 < cfg1.N := by rw [hN]; omega
    obtain ⟨-, -, -, -, -, -, -, -, -, -, e0, e1⟩ := idx1 ⟨(i 0 : Nat) / 2000, ht⟩
    refine ⟨⟨(i 0 : Nat) / 2000, ht⟩, flush1_5 _, ?_⟩
    rw [mem_blk1]
    intro a
    match a with
    | ⟨0, _⟩ =>
      show win1_5.index ⟨(i 0 : Nat) / 2000, ht⟩ 0 * 2000 ≤ (i 0 : Nat) ∧ (i 0 : Nat) < win1_5.index ⟨(i 0 : Nat) / 2000, ht⟩ 0 * 2000 + 2000
      rw [e0]
      show (i 0 : Nat) / 2000 * 2000 ≤ (i 0 : Nat) ∧ (i 0 : Nat) < (i 0 : Nat) / 2000 * 2000 + 2000
      omega
    | ⟨1, _⟩ =>
      show win1_5.index ⟨(i 0 : Nat) / 2000, ht⟩ 1 * 256 ≤ (i 1 : Nat) ∧ (i 1 : Nat) < win1_5.index ⟨(i 0 : Nat) / 2000, ht⟩ 1 * 256 + 256
      rw [e1]
      omega

end Cert.KernelIdeal.Hand

end
-- ==== Proof.Region2.lean ====
/-
  Region 2: the second dense layer over five row blocks of 2000 nodes.

  Grid point `t` reads rows 2000·t … 2000·t + 1999 of the mean array and of the layer's input, and the two weight
  matrices and the bias row whole; it writes the same rows of the result. Since entry (n, q) of the layer depends
  only on row n of the two row-blocked operands, block `t` of the written array is block `t` of the whole-array
  function `layer2G`, and the five blocks tile the 10000 rows, so the array ends holding `layer2G` of the arrays
  the region found.
-/
import proofs.«148028_j32684701122703_1_alg».proof.Proof.Gen.KernelIdeal.Frame
import proofs.«148028_j32684701122703_1_alg».proof.Proof.Body
import proofs.«148028_j32684701122703_1_alg».proof.Proof.Spec
import Idealize.ShloMosaic.Lib.Pipeline.Value

set_option maxRecDepth 16384

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the five grid points: the row-blocked windows are at block (t, 0), the whole ones
    at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The mean window's block at point `t` is rows 2000·t … of the mean array. -/
theorem blk2_0 (c : Dev nD) (t : Fin cfg2.N) (x : S2000x256.Idx) (k : S10000x256.Idx)
    (hk0 : (k 0).val = t.val * 2000 + (x 0).val) (hk1 : (k 1).val = (x 1).val) :
    (iblk2 V c 0 t : Vec Ideal S2000x256 .f32) x = (V c main_v41 : Vec Ideal S10000x256 .f32) k := by
  obtain ⟨e0, e1, -⟩ := idx2 t
  unfold iblk2
  rw [View.read_apply]
  show V c main_v41 _ = V c main_v41 _
  congr 1
  funext a
  apply Fin.ext
  match a with
  | ⟨0, _⟩ => show win2_0.index t 0 * 2000 + 1 * (x 0).val = (k 0).val; rw [e0, hk0]; omega
  | ⟨1, _⟩ => show win2_0.index t 1 * 256 + 1 * (x 1).val = (k 1).val; rw [e1, hk1]; omega

/-- The input window's block at point `t` is rows 2000·t … of the layer's input. -/
theorem blk2_1 (c : Dev nD) (t : Fin cfg2.N) (x : S2000x256.Idx) (k : S10000x256.Idx)
    (hk0 : (k 0).val = t.val * 2000 + (x 0).val) (hk1 : (k 1).val = (x 1).val) :
    (iblk2 V c 1 t : Vec Ideal S2000x256 .f32) x = (V c main_v26 : Vec Ideal S10000x256 .f32) k := by
  obtain ⟨-, -, e0, e1, -⟩ := idx2 t
  unfold iblk2
  rw [View.read_apply]
  show V c main_v26 _ = V c main_v26 _
  congr 1
  funext a
  apply Fin.ext
  match a with
  | ⟨0, _⟩ => show win2_1.index t 0 * 2000 + 1 * (x 0).val = (k 0).val; rw [e0, hk0]; omega
  | ⟨1, _⟩ => show win2_1.index t 1 * 256 + 1 * (x 1).val = (k 1).val; rw [e1, hk1]; omega

/-- The left weight matrix is read whole at every point. -/
theorem blk2_2 (c : Dev nD) (t : Fin cfg2.N) :
    (iblk2 V c 2 t : Vec Ideal S256x256 .f32) = (V c main_arg7 : Vec Ideal S256x256 .f32) := by
  obtain ⟨-, -, -, -, e0, e1, -⟩ := idx2 t
  funext x
  unfold iblk2
  rw [View.read_apply]
  show V c main_arg7 _ = V c main_arg7 x
  congr 1
  funext a
  apply Fin.ext
  match a with
  | ⟨0, _⟩ => show win2_2.index t 0 * 256 + 1 * (x 0).val = (x 0).val; rw [e0]; omega
  | ⟨1, _⟩ => show win2_2.index t 1 * 256 + 1 * (x 1).val = (x 1).val; rw [e1]; omega

/-- The bias row is read whole at every point. -/
theorem blk2_3 (c : Dev nD) (t : Fin cfg2.N) :
    (iblk2 V c 3 t : Vec Ideal S1x256 .f32) = (V c main_v42 : Vec Ideal S1x256 .f32) := by
  obtain ⟨-, -, -, -, -, -, e0, e1, -⟩ := idx2 t
  funext x
  unfold iblk2
  rw [View.read_apply]
  show V c main_v42 _ = V c main_v42 x
  congr 1
  funext a
  apply Fin.ext
  match a with
  | ⟨0, _⟩ => show win2_3.index t 0 * 1 + 1 * (x 0).val = (x 0).val; rw [e0]; omega
  | ⟨1, _⟩ => show win2_3.index t 1 * 256 + 1 * (x 1).val = (x 1).val; rw [e1]; omega

/-- The right weight matrix is read whole at every point. -/
theorem blk2_4 (c : Dev nD) (t : Fin cfg2.N) :
    (iblk2 V c 4 t : Vec Ideal S256x256 .f32) = (V c main_arg9 : Vec Ideal S256x256 .f32) := by
  obtain ⟨-, -, -, -, -, -, -, -, e0, e1, -⟩ := idx2 t
  funext x
  unfold iblk2
  rw [View.read_apply]
  show V c main_arg9 _ = V c main_arg9 x
  congr 1
  funext a
  apply Fin.ext
  match a with
  | ⟨0, _⟩ => show win2_4.index t 0 * 256 + 1 * (x 0).val = (x 0).val; rw [e0]; omega
  | ⟨1, _⟩ => show win2_4.index t 1 * 256 + 1 * (x 1).val = (x 1).val; rw [e1]; omega

/-- One point of the layer: the body on blocks that are rows 2000·t … of `A` and `H` and the whole of `WL`, `WR`, `B`,
    read at the in-block index `y`, is `layer2G` of the whole arrays at the array index `i` lying over `y`. -/
theorem point2 (x0 x1 : Vec Ideal S2000x256 .f32) (x2 x4 : Vec Ideal S256x256 .f32) (x3 : Vec Ideal S1x256 .f32)
    (A H : Vec Ideal S10000x256 .f32) (WL WR : Vec Ideal S256x256 .f32) (B : Vec Ideal S1x256 .f32)
    (tv : ℕ) (y : S2000x256.Idx) (i : S10000x256.Idx)
    (hi0 : (i 0).val = tv * 2000 + (y 0).val) (hi1 : (i 1).val = (y 1).val)
    (e0 : ∀ (x : S2000x256.Idx) (k : S10000x256.Idx), (k 0).val = tv * 2000 + (x 0).val → (k 1).val = (x 1).val → x0 x = A k)
    (e1 : ∀ (x : S2000x256.Idx) (k : S10000x256.Idx), (k 0).val = tv * 2000 + (x 0).val → (k 1).val = (x 1).val → x1 x = H k)
    (e2 : x2 = WL) (e4 : x4 = WR) (e3 : x3 = B) :
    k2_pay1 (F := Ideal) x0 x1 x2 x4 x3 x1 y = layer2G A H WL WR B i := by
  subst e2 e4 e3
  obtain ⟨p, q, rfl⟩ : ∃ (p : Fin 2000) (q : Fin 256), y = ix2 p q := ⟨y 0, y 1, eq_ix2 y⟩
  have hc : colOf i = q := Fin.ext hi1
  rw [pay2_apply]
  unfold layer2G denseG
  rw [hc, e1 (ix2 p q) i hi0 hi1]
  have s0 : ∀ k : Fin 256, x0 (ix2 p k) = A (ix2 (rowOf i) k) := fun k => e0 (ix2 p k) (ix2 (rowOf i) k) hi0 rfl
  have s1 : ∀ k : Fin 256, x1 (ix2 p k) = H (ix2 (rowOf i) k) := fun k => e1 (ix2 p k) (ix2 (rowOf i) k) hi0 rfl
  simp only [s0, s1]

/-- What point `t` writes back is block `t` of `layer2G` of the arrays the region found. -/
theorem flushed2_eq (c : Dev nD) (t : Fin cfg2.N) :
    (dat2 V c).flushed 5 t = ((cfg2.win 5).blk t).view.read (Elt Ideal)
      (layer2G (V c main_v41) (V c main_v26) (V c main_arg7) (V c main_arg9) (V c main_v42)) := by
  show (cfg2.win 5).cut (grid2.coords t) ((dat2 V c).after 5 t) = _
  rw [after2_5]
  unfold out2_5
  rw [View.canon_unit_zero hz2]
  simp only [View.ld_unit_zero (S := S2000x256) hz2, View.ld_unit_zero (S := S256x256) hz2, View.ld_unit_zero (S := S1x256) hz2]
  obtain ⟨-, -, -, -, -, -, -, -, -, -, e0, e1⟩ := idx2 t
  funext j
  show k2_pay1 (F := Ideal) (iblk2 V c 0 t) (iblk2 V c 1 t) (iblk2 V c 2 t) (iblk2 V c 4 t) (iblk2 V c 3 t) (iblk2 V c 1 t) j
    = layer2G (V c main_v41) (V c main_v26) (V c main_arg7) (V c main_arg9) (V c main_v42) (((cfg2.win 5).blk t).view.emb j)
  exact point2 (iblk2 V c 0 t) (iblk2 V c 1 t) (iblk2 V c 2 t) (iblk2 V c 4 t) (iblk2 V c 3 t)
    (V c main_v41) (V c main_v26) (V c main_arg7) (V c main_arg9) (V c main_v42) t.val j (((cfg2.win 5).blk t).view.emb j)
    (by show win2_5.index t 0 * 2000 + 1 * (j 0).val = t.val * 2000 + (j 0).val; rw [e0]; omega)
    (by show win2_5.index t 1 * 256 + 1 * (j 1).val = (j 1).val; rw [e1]; omega)
    (fun x k h0 h1 => blk2_0 V c t x k h0 h1) (fun x k h0 h1 => blk2_1 V c t x k h0 h1)
    (blk2_2 V c t) (blk2_4 V c t) (blk2_3 V c t)

/-- An index of the result array lies in point `t`'s block iff each coordinate is in the block's range. -/
theorem mem_blk2 (t : Fin cfg2.N) (i : S10000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v43).slice (win2_5.rect t)).set ↔ _
  rw [View.set_slice_whole, Rect.mem_set_unit]
  exact Iff.rfl

/-- The result array after the region: `layer2G` of the arrays the region found (the five row blocks tile it). -/
theorem final2 (c : Dev nD) :
    (dat2 V c).arrAt 5 cfg2.N = layer2G (V c main_v41) (V c main_v26) (V c main_arg7) (V c main_arg9) (V c main_v42) :=
  (dat2 V c).arrAt_eq_of_cover 5 _ (fun t _ => flushed2_eq V c t) fun i => by
    have hN : cfg2.N = 5 := N_2
    have h0 : (i 0 : Nat) < 10000 := (i 0).isLt
    have h1 : (i 1 : Nat) < 256 := (i 1).isLt
    have ht : (i 0 : Nat) / 2000 < cfg2.N := by rw [hN]; omega
    obtain ⟨-, -, -, -, -, -, -, -, -, -, e0, e1⟩ := idx2 ⟨(i 0 : Nat) / 2000, ht⟩
    refine ⟨⟨(i 0 : Nat) / 2000, ht⟩, flush2_5 _, ?_⟩
    rw [mem_blk2]
    intro a
    match a with
    | ⟨0, _⟩ =>
      show win2_5.index ⟨(i 0 : Nat) / 2000, ht⟩ 0 * 2000 ≤ (i 0 : Nat) ∧ (i 0 : Nat) < win2_5.index ⟨(i 0 : Nat) / 2000, ht⟩ 0 * 2000 + 2000
      rw [e0]
      show (i 0 : Nat) / 2000 * 2000 ≤ (i 0 : Nat) ∧ (i 0 : Nat) < (i 0 : Nat) / 2000 * 2000 + 2000
      omega
    | ⟨1, _⟩ =>
      show win2_5.index ⟨(i 0 : Nat) / 2000, ht⟩ 1 * 256 ≤ (i 1 : Nat) ∧ (i 1 : Nat) < win2_5.index ⟨(i 0 : Nat) / 2000, ht⟩ 1 * 256 + 256
      rw [e1]
      omega

end Cert.KernelIdeal.Hand

end
-- ==== Proof.KValue.lean ====
/-
  The idealized kernel's two results as functions of its ten arguments.

  The buffer contents at the six segment boundaries are followed from the launch memory: the first stretch of host
  operations cuts the edge table into sources and destinations and makes the first bias a row; region 0 leaves the
  projection `h`; the second stretch leaves the neighbourhood mean of `h`, the edge counts and the second bias as a row;
  region 1 leaves the first layer's output; the third stretch leaves the neighbourhood mean of that output (dividing by
  the edge counts found before) and the third bias as a row; region 2 leaves the second layer's output. A buffer that a
  segment does not write is carried through it unchanged.
-/
import proofs.«148028_j32684701122703_1_alg».proof.Proof.Gen.KernelIdeal.Frame
import proofs.«148028_j32684701122703_1_alg».proof.Proof.Spec
import proofs.«148028_j32684701122703_1_alg».proof.Proof.HostDefs
import proofs.«148028_j32684701122703_1_alg».proof.Proof.Host0
import proofs.«148028_j32684701122703_1_alg».proof.Proof.Host1
import proofs.«148028_j32684701122703_1_alg».proof.Proof.Host2
import proofs.«148028_j32684701122703_1_alg».proof.Proof.Region0
import proofs.«148028_j32684701122703_1_alg».proof.Proof.Region1
import proofs.«148028_j32684701122703_1_alg».proof.Proof.Region2

set_option maxRecDepth 16384

noncomputable section

namespace Cert.KernelIdeal.Hand

open Cert.KernelIdeal Cert.KernelIdeal.Gen Idealize.ShloMosaic Idealize.ShloMosaic.TcCoe Idealize.SL.Sem
open Idealize.ShloMosaic.Pipeline (Dat)

/-- The first result: the first layer applied to the projection and its neighbourhood mean. -/
def out1K (x : Vec Ideal S10000x512 .f32) (e : (⟨S2x320000, .i32⟩ : BufTy).Contents (Elt Ideal))
    (w0 : Vec Ideal S512x256 .f32) (b0 : (⟨S256, .f32⟩ : BufTy).Contents (Elt Ideal))
    (wl1 : Vec Ideal S256x256 .f32) (bl1 : (⟨S256, .f32⟩ : BufTy).Contents (Elt Ideal)) (wr1 : Vec Ideal S256x256 .f32) :
    Vec Ideal S10000x256 .f32 :=
  layer1G (meanOver (linG x w0 (rowK b0)) (srcK e) (dstK e) (degK (dstK e))) (linG x w0 (rowK b0)) wl1 wr1 (rowK bl1)

/-- The second result: the second layer applied to the first result and its neighbourhood mean. -/
def out2K (o1 : Vec Ideal S10000x256 .f32) (e : (⟨S2x320000, .i32⟩ : BufTy).Contents (Elt Ideal))
    (wl2 : Vec Ideal S256x256 .f32) (bl2 : (⟨S256, .f32⟩ : BufTy).Contents (Elt Ideal)) (wr2 : Vec Ideal S256x256 .f32) :
    Vec Ideal S10000x256 .f32 :=
  layer2G (meanOver o1 (srcK e) (dstK e) (degK (dstK e))) o1 wl2 wr2 (rowK bl2)

variable (m : (ℓ : Loc nD τ sig) → Buf (Elt Ideal) ℓ) (ρ : Dev nD → PrngReg) (c : Dev nD)

/-! ## After the first stretch -/

theorem V1_arg0 : V1 m ρ c main_arg0 = (m ((c : Thread nD τ).loc main_arg0)) := host0_keep_arg0 (W0 m ρ c)
theorem V1_arg2 : V1 m ρ c main_arg2 = (m ((c : Thread nD τ).loc main_arg2)) := host0_keep_arg2 (W0 m ρ c)
theorem V1_arg4 : V1 m ρ c main_arg4 = (m ((c : Thread nD τ).loc main_arg4)) := host0_keep_arg4 (W0 m ρ c)
theorem V1_arg5 : V1 m ρ c main_arg5 = (m ((c : Thread nD τ).loc main_arg5)) := host0_keep_arg5 (W0 m ρ c)
theorem V1_arg6 : V1 m ρ c main_arg6 = (m ((c : Thread nD τ).loc main_arg6)) := host0_keep_arg6 (W0 m ρ c)
theorem V1_arg7 : V1 m ρ c main_arg7 = (m ((c : Thread nD τ).loc main_arg7)) := host0_keep_arg7 (W0 m ρ c)
theorem V1_arg8 : V1 m ρ c main_arg8 = (m ((c : Thread nD τ).loc main_arg8)) := host0_keep_arg8 (W0 m ρ c)
theorem V1_arg9 : V1 m ρ c main_arg9 = (m ((c : Thread nD τ).loc main_arg9)) := host0_keep_arg9 (W0 m ρ c)
theorem V1_v1 : V1 m ρ c main_v1 = srcK (m ((c : Thread nD τ).loc main_arg1)) := host0_v1 (W0 m ρ c)
theorem V1_v3 : V1 m ρ c main_v3 = dstK (m ((c : Thread nD τ).loc main_arg1)) := host0_v3 (W0 m ρ c)
theorem V1_v4 : V1 m ρ c main_v4 = rowK (m ((c : Thread nD τ).loc main_arg3)) := host0_v4 (W0 m ρ c)

/-! ## After region 0 -/

theorem V2_v5 : V2 m ρ c main_v5 = (linG (m ((c : Thread nD τ).loc main_arg0)) (m ((c : Thread nD τ).loc main_arg2)) (rowK (m ((c : Thread nD τ).loc main_arg3)))) :=
  (W2_arr m ρ c 3).trans ((final0 (V1 m ρ) c).trans (by rw [V1_arg0, V1_arg2, V1_v4]))
theorem V2_arg4 : V2 m ρ c main_arg4 = (m ((c : Thread nD τ).loc main_arg4)) := (W2_of_ne m ρ c main_arg4 (by decide)).trans (V1_arg4 m ρ c)
theorem V2_arg5 : V2 m ρ c main_arg5 = (m ((c : Thread nD τ).loc main_arg5)) := (W2_of_ne m ρ c main_arg5 (by decide)).trans (V1_arg5 m ρ c)
theorem V2_arg6 : V2 m ρ c main_arg6 = (m ((c : Thread nD τ).loc main_arg6)) := (W2_of_ne m ρ c main_arg6 (by decide)).trans (V1_arg6 m ρ c)
theorem V2_arg7 : V2 m ρ c main_arg7 = (m ((c : Thread nD τ).loc main_arg7)) := (W2_of_ne m ρ c main_arg7 (by decide)).trans (V1_arg7 m ρ c)
theorem V2_arg8 : V2 m ρ c main_arg8 = (m ((c : Thread nD τ).loc main_arg8)) := (W2_of_ne m ρ c main_arg8 (by decide)).trans (V1_arg8 m ρ c)
theorem V2_arg9 : V2 m ρ c main_arg9 = (m ((c : Thread nD τ).loc main_arg9)) := (W2_of_ne m ρ c main_arg9 (by decide)).trans (V1_arg9 m ρ c)
theorem V2_v1 : V2 m ρ c main_v1 = srcK (m ((c : Thread nD τ).loc main_arg1)) := (W2_of_ne m ρ c main_v1 (by decide)).trans (V1_v1 m ρ c)
theorem V2_v3 : V2 m ρ c main_v3 = dstK (m ((c : Thread nD τ).loc main_arg1)) := (W2_of_ne m ρ c main_v3 (by decide)).trans (V1_v3 m ρ c)

/-! ## After the second stretch -/

theorem V3_v24 : V3 m ρ c main_v24 = (meanOver (linG (m ((c : Thread nD τ).loc main_arg0)) (m ((c : Thread nD τ).loc main_arg2)) (rowK (m ((c : Thread nD τ).loc main_arg3)))) (srcK (m ((c : Thread nD τ).loc main_arg1))) (dstK (m ((c : Thread nD τ).loc main_arg1))) (degK (dstK (m ((c : Thread nD τ).loc main_arg1))))) :=
  (host1_v24 (W2 m ρ c)).trans (by
    rw [show W2 m ρ c (Proc.devRef .tc main_v5) = _ from V2_v5 m ρ c, show W2 m ρ c (Proc.devRef .tc main_v1) = _ from V2_v1 m ρ c,
      show W2 m ρ c (Proc.devRef .tc main_v3) = _ from V2_v3 m ρ c])
theorem V3_v19 : V3 m ρ c main_v19 = (degK (dstK (m ((c : Thread nD τ).loc main_arg1)))) :=
  (host1_v19 (W2 m ρ c)).trans (by rw [show W2 m ρ c (Proc.devRef .tc main_v3) = _ from V2_v3 m ρ c])
theorem V3_v25 : V3 m ρ c main_v25 = rowK (m ((c : Thread nD τ).loc main_arg5)) :=
  (host1_v25 (W2 m ρ c)).trans (by rw [show W2 m ρ c (Proc.devRef .tc main_arg5) = _ from V2_arg5 m ρ c])
theorem V3_v5 : V3 m ρ c main_v5 = (linG (m ((c : Thread nD τ).loc main_arg0)) (m ((c : Thread nD τ).loc main_arg2)) (rowK (m ((c : Thread nD τ).loc main_arg3)))) := (host1_keep_v5 (W2 m ρ c)).trans (V2_v5 m ρ c)
theorem V3_v1 : V3 m ρ c main_v1 = srcK (m ((c : Thread nD τ).loc main_arg1)) := (host1_keep_v1 (W2 m ρ c)).trans (V2_v1 m ρ c)
theorem V3_v3 : V3 m ρ c main_v3 = dstK (m ((c : Thread nD τ).loc main_arg1)) := (host1_keep_v3 (W2 m ρ c)).trans (V2_v3 m ρ c)
theorem V3_arg4 : V3 m ρ c main_arg4 = (m ((c : Thread nD τ).loc main_arg4)) := (host1_keep_arg4 (W2 m ρ c)).trans (V2_arg4 m ρ c)
theorem V3_arg6 : V3 m ρ c main_arg6 = (m ((c : Thread nD τ).loc main_arg6)) := (host1_keep_arg6 (W2 m ρ c)).trans (V2_arg6 m ρ c)
theorem V3_arg7 : V3 m ρ c main_arg7 = (m ((c : Thread nD τ).loc main_arg7)) := (host1_keep_arg7 (W2 m ρ c)).trans (V2_arg7 m ρ c)
theorem V3_arg8 : V3 m ρ c main_arg8 = (m ((c : Thread nD τ).loc main_arg8)) := (host1_keep_arg8 (W2 m ρ c)).trans (V2_arg8 m ρ c)
theorem V3_arg9 : V3 m ρ c main_arg9 = (m ((c : Thread nD τ).loc main_arg9)) := (host1_keep_arg9 (W2 m ρ c)).trans (V2_arg9 m ρ c)

/-! ## After region 1 -/

theorem V4_v26 : V4 m ρ c main_v26 = out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_arr m ρ c 5).trans ((final1 (V3 m ρ) c).trans (by rw [V3_v24, V3_v5, V3_arg4, V3_arg6, V3_v25]; rfl))
theorem V4_v1 : V4 m ρ c main_v1 = srcK (m ((c : Thread nD τ).loc main_arg1)) := (W4_of_ne m ρ c main_v1 (by decide)).trans (V3_v1 m ρ c)
theorem V4_v3 : V4 m ρ c main_v3 = dstK (m ((c : Thread nD τ).loc main_arg1)) := (W4_of_ne m ρ c main_v3 (by decide)).trans (V3_v3 m ρ c)
theorem V4_v19 : V4 m ρ c main_v19 = (degK (dstK (m ((c : Thread nD τ).loc main_arg1)))) := (W4_of_ne m ρ c main_v19 (by decide)).trans (V3_v19 m ρ c)
theorem V4_arg7 : V4 m ρ c main_arg7 = (m ((c : Thread nD τ).loc main_arg7)) := (W4_of_ne m ρ c main_arg7 (by decide)).trans (V3_arg7 m ρ c)
theorem V4_arg8 : V4 m ρ c main_arg8 = (m ((c : Thread nD τ).loc main_arg8)) := (W4_of_ne m ρ c main_arg8 (by decide)).trans (V3_arg8 m ρ c)
theorem V4_arg9 : V4 m ρ c main_arg9 = (m ((c : Thread nD τ).loc main_arg9)) := (W4_of_ne m ρ c main_arg9 (by decide)).trans (V3_arg9 m ρ c)

/-! ## After the third stretch -/

theorem V5_v41 : V5 m ρ c main_v41
    = meanOver (out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (srcK (m ((c : Thread nD τ).loc main_arg1))) (dstK (m ((c : Thread nD τ).loc main_arg1))) (degK (dstK (m ((c : Thread nD τ).loc main_arg1)))) :=
  (host2_v41 (W4 m ρ c)).trans (by
    rw [show W4 m ρ c (Proc.devRef .tc main_v26) = _ from V4_v26 m ρ c, show W4 m ρ c (Proc.devRef .tc main_v1) = _ from V4_v1 m ρ c,
      show W4 m ρ c (Proc.devRef .tc main_v3) = _ from V4_v3 m ρ c, show W4 m ρ c (Proc.devRef .tc main_v19) = _ from V4_v19 m ρ c])
theorem V5_v42 : V5 m ρ c main_v42 = rowK (m ((c : Thread nD τ).loc main_arg8)) :=
  (host2_v42 (W4 m ρ c)).trans (by rw [show W4 m ρ c (Proc.devRef .tc main_arg8) = _ from V4_arg8 m ρ c])
theorem V5_v26 : V5 m ρ c main_v26 = out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (host2_keep_v26 (W4 m ρ c)).trans (V4_v26 m ρ c)
theorem V5_arg7 : V5 m ρ c main_arg7 = (m ((c : Thread nD τ).loc main_arg7)) := (host2_keep_arg7 (W4 m ρ c)).trans (V4_arg7 m ρ c)
theorem V5_arg9 : V5 m ρ c main_arg9 = (m ((c : Thread nD τ).loc main_arg9)) := (host2_keep_arg9 (W4 m ρ c)).trans (V4_arg9 m ρ c)

/-! ## After region 2: the two results -/

/-- The second result buffer ends at the second layer of the first result. -/
theorem W6_v43 : W6 m ρ c (Proc.devRef .tc main_v43)
    = out2K (out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg1)) (m ((c : Thread nD τ).loc main_arg7)) (m ((c : Thread nD τ).loc main_arg8)) (m ((c : Thread nD τ).loc main_arg9)) :=
  (W6_arr m ρ c 5).trans ((final2 (V5 m ρ) c).trans (by rw [V5_v41, V5_v26, V5_arg7, V5_arg9, V5_v42]; rfl))

/-- The first result buffer, an input of region 2, ends as region 1 left it. -/
theorem W6_v26 : W6 m ρ c (Proc.devRef .tc main_v26) = out1K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W6_arr m ρ c 1).trans (((dat2 (V5 m ρ) c).arrAt_in 1 rfl _).trans (A_eq2 (V5 m ρ) c 1))).trans (V5_v26 m ρ c)

end Cert.KernelIdeal.Hand

end
-- ==== Proof.RefBridge.lean ====
/-
  The reference's stages are the kernel's whole-array functions.

  The reference computes the projection, the two neighbourhood means and the two layers with whole-array host
  operations. Entry by entry its matrix products are the same sums over the contraction coordinate, its bias
  broadcasts read the bias at the column, its maximum with a zero splat is the maximum with zero, and its
  neighbourhood mean is the same chain of host operations on equal inputs. So each of its stages equals the
  corresponding function of the kernel's side.
-/
import proofs.«148028_j32684701122703_1_alg».proof.Proof.Gen.ReferenceIdeal.Read
import proofs.«148028_j32684701122703_1_alg».proof.Proof.Spec
import proofs.«148028_j32684701122703_1_alg».proof.Proof.HostDefs
import proofs.«148028_j32684701122703_1_alg».proof.Proof.KValue
import Idealize.ShloMosaic.Lib.ValueLayout

set_option maxRecDepth 16384

noncomputable section

open scoped BigOperators

namespace Cert.ReferenceIdeal.Bridge

open Cert.ReferenceIdeal Cert.ReferenceIdeal.Read Cert.KernelIdeal.Hand Idealize.ShloMosaic Idealize.ShloMosaic.ValueIdx

/-! ## The reference's composed index functions are rows and columns -/

theorem lidx4 (i : S10000x256.Idx) (k : Fin 512) : lidx_main_v4 i k = ix2 (rowOf i) k :=
  funext fun a => by match a with | ⟨0, _⟩ => rfl | ⟨1, _⟩ => rfl
theorem ridx4 (i : S10000x256.Idx) (k : Fin 512) : ridx_main_v4 i k = ix2 k (colOf i) :=
  funext fun a => by match a with | ⟨0, _⟩ => rfl | ⟨1, _⟩ => rfl
theorem lidx27 (i : S10000x256.Idx) (k : Fin 256) : lidx_main_v27 i k = ix2 (rowOf i) k :=
  funext fun a => by match a with | ⟨0, _⟩ => rfl | ⟨1, _⟩ => rfl
theorem ridx27 (i : S10000x256.Idx) (k : Fin 256) : ridx_main_v27 i k = ix2 k (colOf i) :=
  funext fun a => by match a with | ⟨0, _⟩ => rfl | ⟨1, _⟩ => rfl
theorem lidx31 (i : S10000x256.Idx) (k : Fin 256) : lidx_main_v31 i k = ix2 (rowOf i) k :=
  funext fun a => by match a with | ⟨0, _⟩ => rfl | ⟨1, _⟩ => rfl
theorem ridx31 (i : S10000x256.Idx) (k : Fin 256) : ridx_main_v31 i k = ix2 k (colOf i) :=
  funext fun a => by match a with | ⟨0, _⟩ => rfl | ⟨1, _⟩ => rfl
theorem lidx54 (i : S10000x256.Idx) (k : Fin 256) : lidx_main_v54 i k = ix2 (rowOf i) k :=
  funext fun a => by match a with | ⟨0, _⟩ => rfl | ⟨1, _⟩ => rfl
theorem ridx54 (i : S10000x256.Idx) (k : Fin 256) : ridx_main_v54 i k = ix2 k (colOf i) :=
  funext fun a => by match a with | ⟨0, _⟩ => rfl | ⟨1, _⟩ => rfl
theorem lidx58 (i : S10000x256.Idx) (k : Fin 256) : lidx_main_v58 i k = ix2 (rowOf i) k :=
  funext fun a => by match a with | ⟨0, _⟩ => rfl | ⟨1, _⟩ => rfl
theorem ridx58 (i : S10000x256.Idx) (k : Fin 256) : ridx_main_v58 i k = ix2 k (colOf i) :=
  funext fun a => by match a with | ⟨0, _⟩ => rfl | ⟨1, _⟩ => rfl
theorem bidx6 (i : S10000x256.Idx) : idx_main_v5 (idx_main_v6 i) = ix1 (colOf i) :=
  funext fun a => by match a with | ⟨0, _⟩ => rfl
theorem bidx29 (i : S10000x256.Idx) : idx_main_v28 (idx_main_v29 i) = ix1 (colOf i) :=
  funext fun a => by match a with | ⟨0, _⟩ => rfl
theorem bidx56 (i : S10000x256.Idx) : idx_main_v55 (idx_main_v56 i) = ix1 (colOf i) :=
  funext fun a => by match a with | ⟨0, _⟩ => rfl

/-- A bias vector as a one-row table, read at column `q`, is the vector's entry `q`. -/
theorem rowK_apply (b : (⟨S256, .f32⟩ : BufTy).Contents (Elt Ideal)) (q : Fin 256) :
    rowK b (ix2 (0 : Fin 1) q) = b (ix1 q) := by
  unfold rowK
  exact shapeCast_a_1a_apply b _ 0 q

/-! ## The stages -/

/-- The projection. -/
theorem lin_eq (x0 : (⟨S10000x512, .f32⟩ : BufTy).Contents (Elt Ideal)) (x2 : (⟨S512x256, .f32⟩ : BufTy).Contents (Elt Ideal)) (x3 : (⟨S256, .f32⟩ : BufTy).Contents (Elt Ideal)) :
    linG x0 x2 (rowK x3) = val_main_v7 (F := Ideal) x0 x2 x3 := by
  funext i
  rw [val_main_v7_apply, val_main_v4_apply, val_main_v6_apply, val_main_v5_apply]
  unfold linG
  rw [rowK_apply]
  simp only [lidx4, ridx4, bidx6]
  rfl

/-- The first neighbourhood mean: the same host operations on the same inputs. -/
theorem mean1_eq (x0 : (⟨S10000x512, .f32⟩ : BufTy).Contents (Elt Ideal)) (x1 : (⟨S2x320000, .i32⟩ : BufTy).Contents (Elt Ideal)) (x2 : (⟨S512x256, .f32⟩ : BufTy).Contents (Elt Ideal)) (x3 : (⟨S256, .f32⟩ : BufTy).Contents (Elt Ideal)) :
    meanOver (val_main_v7 (F := Ideal) x0 x2 x3) (srcK x1) (dstK x1) (degK (dstK x1))
      = val_main_v26 (F := Ideal) x0 x1 x2 x3 := rfl

/-- The first layer. -/
theorem out1_eq (x0 : (⟨S10000x512, .f32⟩ : BufTy).Contents (Elt Ideal)) (x1 : (⟨S2x320000, .i32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) :
    out1K x0 x1 x2 x3 x4 x5 x6 = val_main_v34 (F := Ideal) x0 x1 x2 x3 x4 x5 x6 := by
  unfold out1K
  rw [lin_eq, mean1_eq]
  funext i
  rw [val_main_v34_apply, val_main_v33_apply, val_main_v32_apply, val_main_v30_apply, val_main_v27_apply,
    val_main_v29_apply, val_main_v28_apply, val_main_v31_apply, val_main_call0_v0_apply, val_main_call0_cst_apply]
  unfold layer1G denseG
  rw [rowK_apply]
  simp only [lidx27, ridx27, lidx31, ridx31, bidx29]
  rfl

/-- The second neighbourhood mean: the same host operations on the same inputs. -/
theorem mean2_eq (x0 : (⟨S10000x512, .f32⟩ : BufTy).Contents (Elt Ideal)) (x1 : (⟨S2x320000, .i32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) :
    meanOver (val_main_v34 (F := Ideal) x0 x1 x2 x3 x4 x5 x6) (srcK x1) (dstK x1) (degK (dstK x1))
      = val_main_v53 (F := Ideal) x0 x1 x2 x3 x4 x5 x6 := rfl

/-- The second layer. -/
theorem out2_eq (x0 : (⟨S10000x512, .f32⟩ : BufTy).Contents (Elt Ideal)) (x1 : (⟨S2x320000, .i32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x256, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) :
    out2K (out1K x0 x1 x2 x3 x4 x5 x6) x1 x7 x8 x9 = val_main_v60 (F := Ideal) x0 x1 x2 x3 x4 x5 x6 x7 x8 x9 := by
  unfold out2K
  rw [out1_eq, mean2_eq]
  funext i
  rw [val_main_v60_apply, val_main_v59_apply, val_main_v57_apply, val_main_v54_apply,
    val_main_v56_apply, val_main_v55_apply, val_main_v58_apply]
  unfold layer2G denseG
  rw [rowK_apply]
  simp only [lidx54, ridx54, lidx58, ridx58, bidx56]
  rfl

end Cert.ReferenceIdeal.Bridge

end
-- ==== Proof.lean ====
/-
  The certificate of a two-layer neighbourhood-averaging network, kernel against reference, on the extended reals.

  Both programs compute  h = x·W0 + b0,  out1 = max(mean(h)·Wl1 + bl1 + h·Wr1, 0) + h  and
  out2 = mean(out1)·Wl2 + bl2 + out1·Wr2 + out1,  where mean(v) gathers the rows of v at the edges' sources, adds them
  at the edges' destinations and divides row n by the larger of 1 and the number of edges ending in n. The kernel
  does the three dense stages in pipelined regions over five blocks of 2000 rows and the neighbourhood means with
  host operations between them; the reference does everything with whole-array host operations. A change of float
  format is the identity on the extended reals, each block of a dense stage depends only on its own rows, and the
  blocks tile the array, so the regions leave the whole-array stages; the host operations in between are the
  reference's own, applied to equal inputs; and the sums are taken in the same order on both sides. No law beyond
  reading both sides entry by entry is needed, so the finiteness of the inputs is not used.
-/
import proofs.«148028_j32684701122703_1_alg».proof.Defs
import proofs.«148028_j32684701122703_1_alg».proof.Proof.Gen.Kernel
import proofs.«148028_j32684701122703_1_alg».proof.Proof.Gen.Kernel.Skeleton
import proofs.«148028_j32684701122703_1_alg».proof.Proof.Gen.Kernel.Launch
import proofs.«148028_j32684701122703_1_alg».proof.Proof.Gen.Kernel.Points
import proofs.«148028_j32684701122703_1_alg».proof.Proof.Gen.Kernel.Frame
import proofs.«148028_j32684701122703_1_alg».proof.Proof.Gen.KernelIdeal
import proofs.«148028_j32684701122703_1_alg».proof.Proof.Gen.KernelIdeal.Skeleton
import proofs.«148028_j32684701122703_1_alg».proof.Proof.Gen.KernelIdeal.Launch
import proofs.«148028_j32684701122703_1_alg».proof.Proof.Gen.KernelIdeal.Points
import proofs.«148028_j32684701122703_1_alg».proof.Proof.Gen.KernelIdeal.Frame
import proofs.«148028_j32684701122703_1_alg».proof.Proof.Gen.ReferenceIdeal
import proofs.«148028_j32684701122703_1_alg».proof.Proof.Gen.ReferenceIdeal.Run
import proofs.«148028_j32684701122703_1_alg».proof.Proof.Gen.ReferenceIdeal.Read
import proofs.«148028_j32684701122703_1_alg».proof.Proof.Gen.Pre_finite_inputs
import proofs.«148028_j32684701122703_1_alg».proof.Proof.KRun
import proofs.«148028_j32684701122703_1_alg».proof.Proof.KValue
import proofs.«148028_j32684701122703_1_alg».proof.Proof.RefBridge
import Idealize.ShloMosaic.Adequacy
import Idealize.ShloMosaic.Init

set_option maxRecDepth 16384

noncomputable section

namespace Cert.Proof

open Idealize.ShloMosaic Idealize.SL.Sem

/-- The word-level kernel terminates without a fault and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the first layer's output and the second layer's output of the same arguments. -/
theorem algebraic : Cert.algebraic_KernelIdeal_ReferenceIdeal := by
  intro m ρ m' ρ' _ hagree
  refine ⟨fun c => Cert.KernelIdeal.Hand.out1K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.Hand.out2K (Cert.KernelIdeal.Hand.out1K (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    ?_, ?_⟩
  · exact (θ_run Cert.KernelIdeal.defs _ _).mono
      (fun _ h c => ⟨(h c).1.trans (Cert.KernelIdeal.Hand.W6_v26 m ρ c), (h c).2.1.trans (Cert.KernelIdeal.Hand.W6_v43 m ρ c), (h c).2.2⟩)
      (Cert.KernelIdeal.Hand.run_named m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9⟩ := hagree c
      rw [Cert.ReferenceIdeal.Read.val_main_v34_eq, e0, e1, e2, e3, e4, e5, e6]
      exact (Cert.ReferenceIdeal.Bridge.out1_eq _ _ _ _ _ _ _).symm
    · obtain ⟨e0, e1, e2, e3, e4, e5, e6, e7, e8, e9⟩ := hagree c
      rw [Cert.ReferenceIdeal.Read.val_main_v60_eq, e0, e1, e2, e3, e4, e5, e6, e7, e8, e9]
      exact (Cert.ReferenceIdeal.Bridge.out2_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
